-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S128x128 : Shape := ⟨2, ![128, 128]⟩
abbrev S100000x64 : Shape := ⟨2, ![100000, 64]⟩
abbrev S1x64 : Shape := ⟨2, ![1, 64]⟩

abbrev nBuf : Space → Nat
  | .hbm => 96
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S1700000x1, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S100000x64, .f32⟩
  | 125 => ⟨S_, .f32⟩
  | 126 => ⟨S1700000, .f32⟩
  | 127 => ⟨S_, .f32⟩
  | _ => ⟨S100000x256, .f32⟩

abbrev hbmTy0_1 (i : Nat) : BufTy := match i % 128 with
  | 0 => ⟨S100000, .f32⟩
  | 1 => ⟨S1700000x1, .i32⟩
  | 2 => ⟨S100000, .f32⟩
  | 3 => ⟨S_, .f32⟩
  | 4 => ⟨S100000, .f32⟩
  | 5 => ⟨S100000, .i1⟩
  | 6 => ⟨S100000, .f32⟩
  | 7 => ⟨S_, .f32⟩
  | 8 => ⟨S_, .f32⟩
  | 9 => ⟨S100000, .f32⟩
  | 10 => ⟨S100000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000, .f32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x64, .f32⟩
  | 39 => ⟨S1700000x1, .f32⟩
  | 40 => ⟨S1700000x64, .f32⟩
  | 41 => ⟨S1700000x64, .f32⟩
  | 42 => ⟨S_, .f32⟩
  | 43 => ⟨S100000x64, .f32⟩
  | 44 => ⟨S1700000x1, .i32⟩
  | 45 => ⟨S100000x64, .f32⟩
  | 46 => ⟨S1x64, .f32⟩
  | 47 => ⟨S100000x64, .f32⟩
  | 48 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_call3_v0 : Ref sig .tc := ⟨.hbm, 136, rfl⟩
abbrev main_call3_v1 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_c_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_26 : Ref sig .tc := ⟨.hbm, 148, rfl⟩
abbrev main_v104 : Ref sig .tc := ⟨.hbm, 149, rfl⟩
abbrev main_v105 : Ref sig .tc := ⟨.hbm, 150, rfl⟩
abbrev main_c_27 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_c_29 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_30 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its results named.

  @main is nine segments: three stretches of host operations, the first matrix product's grid, three more stretches,
  the second product's grid, and a last stretch. The contents of every unscoped buffer at each segment boundary form
  a fold `W0 … W9` from the launch memory: a stretch applies its operations, a grid leaves each of its arrays at what
  its write-backs add up to and every other buffer untouched. Every weakly fair execution terminates, and the final
  memory holds, at every unscoped buffer, the last boundary's contents `W9`. Read at the two result buffers and the
  eight arguments, that is the statement below: the results are `W9` at their buffers, the arguments are as launched.
-/
import proofs.«178724_j18897856102728_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result buffer ends at the last boundary's
    contents and each argument as launched. -/
theorem run_results : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«178724_j18897856102728_1_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibPlainProduct.lean ====
/-
  The plain matrix product as one function, and its three spellings.

  `mm x w` is the textbook product of `x : [M, K]` and `w : [K, N]` over the extended reals: entry `(p, o)` is the sum
  over `k` of `x (p, k) * w (k, o)`. At the exact values it is what a kernel's `tpu.matmul` from the zero accumulator
  computes and what the host's `dot_general` computes, for any dimension record that contracts the left operand's
  second axis against the right operand's first. When the right operand is two matrices side by side, `[W₁ | W₂]`,
  the left columns of the product are the product with `W₁` and the right columns the product with `W₂`: each entry
  of the product reads one column of the right operand. General in the extents and the float formats.
-/
import Idealize.ShloMosaic.Lib.Pipeline.Value
import proofs.«178724_j18897856102728_1_alg».proof.Proof.LibMatmulPlain
import proofs.«178724_j18897856102728_1_alg».proof.Proof.LibHostDotPlain

noncomputable section

open scoped BigOperators

namespace Cert.PlainProduct

open Idealize.ShloMosaic Idealize.ShloMosaic.ValueIdx Cert.MatmulPlain Cert.HostDotPlain

variable {M K N : ℕ}

/-- The textbook product over the extended reals. -/
def mm (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

theorem mm_apply (x : (⟨2, ![M, K]⟩ : Shape).Idx → EReal) (w : (⟨2, ![K, N]⟩ : Shape).Idx → EReal) (p : Fin M) (o : Fin N) :
    mm x w (ix2 p o) = ∑ k : Fin K, x (ix2 p k) * w (ix2 k o) := rfl

/-- A kernel's matrix product from the zero accumulator is `mm`. -/
theorem matmul_zero_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant (F := Ideal) ⟨2, ![M, N]⟩ .f32 0x00000000#32) = mm l r := by
  funext j
  obtain ⟨p, o, rfl⟩ : ∃ (p : Fin M) (o : Fin N), j = ix2 p o := ⟨j 0, j 1, eq_ix2 j⟩
  exact matmul_plain_apply d hlc hrc hln hrn hlb hrb prec l r p o

/-- The host's matrix product is `mm`. -/
theorem dotGeneral_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) :
    FloatOps.dotGeneral d prec sched l r = mm l r := by
  funext j
  obtain ⟨p, o, rfl⟩ : ∃ (p : Fin M) (o : Fin N), j = ix2 p o := ⟨j 0, j 1, eq_ix2 j⟩
  exact dotGeneral_plain_apply d hlc hrc hln hrn hlb hrb prec sched l r p o

variable {N₁ N₂ : ℕ}

/-- The left columns of a product with `[W₁ | W₂]` are the product with `W₁`. -/
theorem mm_sideBySide_left (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₁) (o : Fin N) (ho : o.val = c.val) :
    mm x (concatenate ⟨2, ![K, N]⟩ (1 : Fin 2) [⟨⟨2, ![K, N₁]⟩, w₁⟩, ⟨⟨2, ![K, N₂]⟩, w₂⟩] h) (ix2 p o) = mm x w₁ (ix2 p c) := by
  rw [mm_apply, mm_apply]
  refine Finset.sum_congr rfl fun k _ => ?_
  congr 1
  exact concatenate_pair_apply_left (1 : Fin 2) w₁ w₂ h (ix2 k o) rfl (ix2 k c) (fun b => by
    match b with
    | ⟨0, _⟩ => rfl
    | ⟨1, _⟩ => exact ho.symm)

/-- The right columns of a product with `[W₁ | W₂]` are the product with `W₂`. -/
theorem mm_sideBySide_right (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₂) (o : Fin N) (ho : o.val = N₁ + c.val) :
    mm x (concatenate ⟨2, ![K, N]⟩ (1 : Fin 2) [⟨⟨2, ![K, N₁]⟩, w₁⟩, ⟨⟨2, ![K, N₂]⟩, w₂⟩] h) (ix2 p o) = mm x w₂ (ix2 p c) := by
  rw [mm_apply, mm_apply]
  refine Finset.sum_congr rfl fun k _ => ?_
  congr 1
  exact concatenate_pair_apply_right (1 : Fin 2) w₁ w₂ h (ix2 k o) rfl rfl (ix2 k c) (fun b hb => by
    match b with
    | ⟨0, _⟩ => rfl
    | ⟨1, _⟩ => exact absurd rfl hb)
    (by show c.val + N₁ = o.val; omega)

end Cert.PlainProduct

end
-- ==== Proof.KernelProducts.lean ====
/-
  What the two grids leave in their output arrays.

  Each pallas_call is a grid of twenty points. Point `t` fetches rows `5000 t … 5000 t + 4999` of its left array and
  the whole right matrix, multiplies the two blocks (a change of float format is the identity at the exact values, so
  the casts to the narrow format on the way in do nothing; the accumulator starts from zero) and writes the product
  back as rows `5000 t … 5000 t + 4999` of the output array. Row `r` of a product depends on row `r` of the left
  operand only, so block `t` of the product of the whole arrays is the product of block `t` with the right matrix; the
  twenty row blocks cover the output array; hence the output array ends as the plain product of the two arrays.
-/
import proofs.«178724_j18897856102728_1_alg».proof.Proof.Gen.KernelIdeal.Frame
import Idealize.ShloMosaic.Lib.Pipeline.Value
import Idealize.ShloMosaic.Lib.ValueIdx
import proofs.«178724_j18897856102728_1_alg».proof.Proof.LibPlainProduct

set_option maxRecDepth 16384

noncomputable section

open scoped BigOperators

namespace Cert.KernelIdeal.Products

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PlainProduct

theorem hz : (![0, 0] : Fin 2 → Nat) = fun _ => 0 := funext fun a => by fin_cases a <;> rfl

/-! ## Grid 0: row blocks of 5000 of `[100000, 256]` times the whole `[256, 128]` -/

section Grid0
variable (V : (c : Dev nD) → (b : Ref sig .tc) → Buf (Elt Ideal) ((c : Thread nD τ).loc b))

/-- The body's product of its two loaded blocks is their plain product. -/
theorem pay0 (x0 : Vec Ideal S5000x256 .f32) (x1 : Vec Ideal S256x128 .f32) : k0_pay1 x0 x1 = mm x0 x1 := by
  unfold k0_pay1
  exact matmul_zero_eq_mm dot_S5000x256_S256x128_S5000x128_1_0_0_1_n_n rfl rfl rfl rfl rfl rfl none _ _

/-- The printed index maps, decided over the twenty points: the left operand's block and the output's block sit at
    the same row block, in column block 0; the right operand's one block is the whole matrix. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto0 : ∀ q : Fin 20, ∃ t : Fin cfg0.N, win0_2.index t = ![q.val, 0] :=
  (by decide +kernel : ∀ q : Fin 20, ∃ t : Fin grid0.N, win0_2.index t = ![q.val, 0])

/-- The left operand's block at point `t`, read at `(p, k)`: the array's row `5000 · (row block) + p`, column `k`. -/
theorem lblock0 (c : Dev nD) (t : Fin cfg0.N) (p : Fin 5000) (k : Fin 256) (r : Fin 100000)
    (hr : r.val = win0_2.index t (0 : Fin 2) * 5000 + p.val) :
    iblk0 V c 0 t (ix2 p k) = V c (Pipeline.arrRef spec0 0) (ix2 r k) := by
  obtain ⟨e0, e1, e2, e3, e4, e5⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The right operand's block at any point is the whole matrix. -/
theorem rblock0 (c : Dev nD) (t : Fin cfg0.N) (k : Fin 256) (o : Fin 128) :
    iblk0 V c 1 t (ix2 k o) = V c (Pipeline.arrRef spec0 1) (ix2 k o) := by
  obtain ⟨e0, e1, e2, e3, e4, e5⟩ := idx_facts0 t
  show V c (Pipeline.arrRef spec0 1) (((cfg0.win 1).blk t).view.emb (ix2 k o)) = V c (Pipeline.arrRef spec0 1) (ix2 k o)
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * o.val = o.val; omega

/-- What point `t` writes back is block `t` of the product of the two arrays as the grid finds them. -/
theorem flushed0_eq (c : Dev nD) (t : Fin cfg0.N) :
    (dat0 V c).flushed 2 t = ((cfg0.win 2).blk t).view.read (Elt Ideal)
      (mm (M := 100000) (K := 256) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [pay0]
  obtain ⟨e0, e1, e2, e3, e4, e5⟩ := idx_facts0 t
  funext j
  obtain ⟨p, o, rfl⟩ : ∃ (p : Fin 5000) (o : Fin 128), j = ix2 p o := ⟨j 0, j 1, eq_ix2 j⟩
  have hr : win0_2.index t (0 : Fin 2) * 5000 + p.val < 100000 := by have := p.isLt; omega
  have hemb : ((cfg0.win 2).blk t).view.emb (ix2 p o)
      = (ix2 ⟨win0_2.index t (0 : Fin 2) * 5000 + p.val, hr⟩ o : S100000x128.Idx) := by
    funext a; refine Fin.ext ?_
    match a with
    | ⟨0, _⟩ => show win0_2.index t (0 : Fin 2) * 5000 + 1 * p.val = win0_2.index t (0 : Fin 2) * 5000 + p.val; omega
    | ⟨1, _⟩ => show win0_2.index t (1 : Fin 2) * 128 + 1 * o.val = o.val; omega
  show mm (iblk0 V c 0 t) (iblk0 V c 1 t) (ix2 p o) = mm _ _ (((cfg0.win 2).blk t).view.emb (ix2 p o))
  rw [hemb, mm_apply, mm_apply]
  refine Finset.sum_congr rfl fun k _ => ?_
  rw [lblock0 V c t p k ⟨_, hr⟩ rfl, rblock0 V c t k o]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array is in the block of the point of its row block. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the grid: the plain product of the two arrays the grid reads, as it finds them. -/
theorem final0 (c : Dev nD) : (dat0 V c).arrAt 2 cfg0.N
    = mm (M := 100000) (K := 256) (N := 128) (V c (Pipeline.arrRef spec0 0)) (V c (Pipeline.arrRef spec0 1)) :=
  (dat0 V c).arrAt_eq_of_cover 2 _ (fun t _ => flushed0_eq V c t) (cover0)

end Grid0

/-! ## Grid 1: row blocks of 5000 of `[100000, 128]` times the whole `[128, 128]` -/

section Grid1
variable (V : (c : Dev nD) → (b : Ref sig .tc) → Buf (Elt Ideal) ((c : Thread nD τ).loc b))

/-- The body's product of its two loaded blocks is their plain product (the two shape casts are between equal shapes). -/
theorem pay1 (x0 : Vec Ideal S5000x128 .f32) (x1 : Vec Ideal S128x128 .f32) : k1_pay1 x0 x1 = mm x0 x1 := by
  unfold k1_pay1
  simp only [shapeCast_self]
  exact matmul_zero_eq_mm dot_S5000x128_S128x128_S5000x128_1_0_0_1_n_n rfl rfl rfl rfl rfl rfl none _ _

/-- The printed index maps, decided over the twenty points: the left operand's block and the output's block sit at
    the same row block, in column block 0; the right operand's one block is the whole matrix. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block is some point's. -/
theorem idx_onto1 : ∀ q : Fin 20, ∃ t : Fin cfg1.N, win1_2.index t = ![q.val, 0] :=
  (by decide +kernel : ∀ q : Fin 20, ∃ t : Fin grid1.N, win1_2.index t = ![q.val, 0])

/-- The left operand's block at point `t`, read at `(p, k)`: the array's row `5000 · (row block) + p`, column `k`. -/
theorem lblock1 (c : Dev nD) (t : Fin cfg1.N) (p : Fin 5000) (k : Fin 128) (r : Fin 100000)
    (hr : r.val = win1_2.index t (0 : Fin 2) * 5000 + p.val) :
    iblk1 V c 0 t (ix2 p k) = V c (Pipeline.arrRef spec1 0) (ix2 r k) := by
  obtain ⟨e0, e1, e2, e3, e4, e5⟩ := idx_facts1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The right operand's block at any point is the whole matrix. -/
theorem rblock1 (c : Dev nD) (t : Fin cfg1.N) (k : Fin 128) (o : Fin 128) :
    iblk1 V c 1 t (ix2 k o) = V c (Pipeline.arrRef spec1 1) (ix2 k o) := by
  obtain ⟨e0, e1, e2, e3, e4, e5⟩ := idx_facts1 t
  show V c (Pipeline.arrRef spec1 1) (((cfg1.win 1).blk t).view.emb (ix2 k o)) = V c (Pipeline.arrRef spec1 1) (ix2 k o)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * o.val = o.val; omega

/-- What point `t` writes back is block `t` of the product of the two arrays as the grid finds them. -/
theorem flushed1_eq (c : Dev nD) (t : Fin cfg1.N) :
    (dat1 V c).flushed 2 t = ((cfg1.win 2).blk t).view.read (Elt Ideal)
      (mm (M := 100000) (K := 128) (N := 128) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay1]
  obtain ⟨e0, e1, e2, e3, e4, e5⟩ := idx_facts1 t
  funext j
  obtain ⟨p, o, rfl⟩ : ∃ (p : Fin 5000) (o : Fin 128), j = ix2 p o := ⟨j 0, j 1, eq_ix2 j⟩
  have hr : win1_2.index t (0 : Fin 2) * 5000 + p.val < 100000 := by have := p.isLt; omega
  have hemb : ((cfg1.win 2).blk t).view.emb (ix2 p o)
      = (ix2 ⟨win1_2.index t (0 : Fin 2) * 5000 + p.val, hr⟩ o : S100000x128.Idx) := by
    funext a; refine Fin.ext ?_
    match a with
    | ⟨0, _⟩ => show win1_2.index t (0 : Fin 2) * 5000 + 1 * p.val = win1_2.index t (0 : Fin 2) * 5000 + p.val; omega
    | ⟨1, _⟩ => show win1_2.index t (1 : Fin 2) * 128 + 1 * o.val = o.val; omega
  show mm (iblk1 V c 0 t) (iblk1 V c 1 t) (ix2 p o) = mm _ _ (((cfg1.win 2).blk t).view.emb (ix2 p o))
  rw [hemb, mm_apply, mm_apply]
  refine Finset.sum_congr rfl fun k _ => ?_
  rw [lblock1 V c t p k ⟨_, hr⟩ rfl, rblock1 V c t k o]

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every index of the output array is in the block of the point of its row block. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the grid: the plain product of the two arrays the grid reads, as it finds them. -/
theorem final1 (c : Dev nD) : (dat1 V c).arrAt 2 cfg1.N
    = mm (M := 100000) (K := 128) (N := 128) (V c (Pipeline.arrRef spec1 0)) (V c (Pipeline.arrRef spec1 1)) :=
  (dat1 V c).arrAt_eq_of_cover 2 _ (fun t _ => flushed1_eq V c t) (cover1)

end Grid1

end Cert.KernelIdeal.Products

end
-- ==== Proof.KernelStages.lean ====
/-
  The idealized kernel's buffers at the segment boundaries, as functions of the launch memory.

  Before the first grid the host operations compute, from the edge list alone, the source and destination row numbers
  (the edges, then one self loop per node), the in-degrees (ones scattered to the destinations), their inverse square
  roots where positive, and the edge weight column (the product of the two endpoints' factors). The first grid leaves
  the plain product of the features and the first weight matrix. The host operations between the grids gather its rows
  at the sources, scale by the weights, scatter-add to the destinations, add the bias and clip at zero: the hidden
  layer; and put the two head matrices side by side. The second grid leaves the product of the hidden layer with that
  wide matrix. Each of these values is the same composition of the same operations that the reference states stage
  by stage, so each is stated as the reference's stage function of the launch contents; a buffer that a segment does
  not write is carried across it unchanged.
-/
import proofs.«178724_j18897856102728_1_alg».proof.Proof.Gen.KernelIdeal.Frame
import proofs.«178724_j18897856102728_1_alg».proof.Proof.RefReadPatched
import proofs.«178724_j18897856102728_1_alg».proof.Proof.KernelProducts
import Idealize.ShloMosaic.Lib.StableHlo.Run

set_option maxRecDepth 16384

noncomputable section

namespace Cert.KernelIdeal.Stages

open Idealize.ShloMosaic Idealize.ShloMosaic.TcCoe Idealize.ShloMosaic.StableHlo
open Idealize.SL Idealize.SL.Sem
open Cert.KernelIdeal Cert.KernelIdeal.Gen Cert.KernelIdeal.Products Cert.PlainProduct

variable (m : (ℓ : Loc nD τ sig) → Buf (Elt Ideal) ℓ) (ρ : Dev nD → PrngReg) (c : Dev nD)

/-! ## The two outlined calls, over any entry contents

A value passes into and out of an outlined function through a transport along the equation between a buffer's type
and the value's type; on a literal buffer that equation holds by computation and the transport is the identity. -/

section Calls
variable (V : Valuation τ sig (Elt Ideal))

/-- `where (p, q, 0)`: `q` where `p` holds, the scalar splat elsewhere. -/
theorem where_step : StableHlo.after hostOps0_1 V (Proc.devRef .tc main_v14)
    = select (s := S100000) (V (Proc.devRef .tc main_v12)) (V (Proc.devRef .tc main_v13))
        (broadcastInDim S100000 ![] bcast_S_S100000 (id (V (Proc.devRef .tc main_cst_2)))) := by
  after_results_simp
  rfl

/-- `relu`: the maximum with a splat of zero. -/
theorem relu_step : StableHlo.after hostOps1_1 V (Proc.devRef .tc main_v47)
    = maximumf (F := Ideal) (s := S100000x128) (φ := .f32) (V (Proc.devRef .tc main_v46))
        (broadcastInDim S100000x128 ![] bcast_S_S100000x128 (constant (F := Ideal) S_ .f32 0x00000000#32)) := by
  after_results_simp
  rfl

end Calls

/-! ## Before the first grid -/

/-- The source row numbers: the edge list's first row, then the self loops. -/
theorem W3_src : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl

/-- The destination row numbers: the edge list's second row, then the self loops. -/
theorem W3_dst : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl

/-! The weights, one stretch at a time: each stretch is read over its entry contents taken as a whole, so that every
    value meets the reference's stage of the same name as soon as it is formed. -/

/-- After the first stretch: the source row numbers. -/
theorem W1_src : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- After the first stretch: the destination row numbers. -/
theorem W1_dst : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

/-- After the first stretch: where the in-degree (ones summed at the destinations) is positive. -/
theorem W1_pos : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  after_results
  rfl

/-- After the first stretch: the inverse square root of the in-degree. -/
theorem W1_rsqrt : W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  after_results
  rfl

/-- After the first stretch: the zero that replaces the factor of a node without in-edges. -/
theorem W1_zero : W1 m ρ c (Proc.devRef .tc main_cst_2) = Cert.ReferenceIdeal.ReadP.val_main_cst_2 (F := Ideal) := by
  show StableHlo.after hostOps0 (W0 m ρ c) (Proc.devRef .tc main_cst_2) = _
  after_results
  rfl

/-- After the second stretch: a node's factor, the inverse square root of its in-degree where that is positive, else 0. -/
theorem W2_factor : W2 m ρ c (Proc.devRef .tc main_v14) = Cert.ReferenceIdeal.ReadP.val_main_v15 (F := Ideal) (m ((c : Thread nD τ).loc main_arg1)) := by
  show StableHlo.after hostOps0_1 (W1 m ρ c) (Proc.devRef .tc main_v14) = _
  rw [where_step, W1_pos, W1_rsqrt, W1_zero]
  rfl

/-- The second stretch keeps the row numbers. -/
theorem W2_src : W2 m ρ c (Proc.devRef .tc main_v3) = Cert.ReferenceIdeal.ReadP.val_main_v3 (F := Ideal) (m ((c : Thread nD τ).loc main_arg1)) := by
  have h := W1_src m ρ c
  show StableHlo.after hostOps0_1 (W1 m ρ c) (Proc.devRef .tc main_v3) = _
  generalize W1 m ρ c = V at h ⊢
  after_results_simp
  exact h
theorem W2_dst : W2 m ρ c (Proc.devRef .tc main_v6) = Cert.ReferenceIdeal.ReadP.val_main_v6 (F := Ideal) (m ((c : Thread nD τ).loc main_arg1)) := by
  have h := W1_dst m ρ c
  show StableHlo.after hostOps0_1 (W1 m ρ c) (Proc.devRef .tc main_v6) = _
  generalize W1 m ρ c = V at h ⊢
  after_results_simp
  exact h

set_option maxHeartbeats 2000000 in
/-- The edge weight column: the product of the two endpoints' factors, each taken at its (wrapped) row number. -/
theorem W3_norm : W3 m ρ c (Proc.devRef .tc main_v30) = Cert.ReferenceIdeal.ReadP.val_main_v38 (F := Ideal) (m ((c : Thread nD τ).loc main_arg1)) := by
  have h14 := W2_factor m ρ c
  have h3 := W2_src m ρ c
  have h6 := W2_dst m ρ c
  show StableHlo.after hostOps0_2 (W2 m ρ c) (Proc.devRef .tc main_v30) = _
  generalize W2 m ρ c = V at h14 h3 h6 ⊢
  after_results_simp
  rw [h14, h3, h6]
  rfl

/-- Argument 0 is untouched before the first grid. -/
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

/-- Argument 2 is untouched before the first grid. -/
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

/-- Argument 3 is untouched before the first grid. -/
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results

/-- Argument 4 is untouched before the first grid. -/
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

/-- Argument 5 is untouched before the first grid. -/
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

/-- Argument 6 is untouched before the first grid. -/
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results

/-- Argument 7 is untouched before the first grid. -/
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results

/-! ## The first grid -/

/-- The first grid leaves the features times the first weight matrix. -/
theorem W4_hlin : W4 m ρ c (Proc.devRef .tc main_v31) = Cert.ReferenceIdeal.ReadP.val_main_v7 (F := Ideal) (m ((c : Thread nD τ).loc main_arg0)) (m ((c : Thread nD τ).loc main_arg2)) := by
  refine (W4_arr m ρ c 2).trans ?_
  rw [final0 (V3 m ρ) c]
  show mm (W3 m ρ c (Proc.devRef .tc main_arg0)) (W3 m ρ c (Proc.devRef .tc main_arg2)) = _
  rw [W3_arg0, W3_arg2]
  exact (dotGeneral_eq_mm Cert.ReferenceIdeal.dot_S100000x256_S256x128_S100000x128_1_0_0_1_n_n rfl rfl rfl rfl rfl rfl none _ _ _).symm

theorem W4_keep_main_v3 : W4 m ρ c (Proc.devRef .tc main_v3) = W3 m ρ c (Proc.devRef .tc main_v3) := W4_of_ne m ρ c main_v3 (by decide)

theorem W4_keep_main_v6 : W4 m ρ c (Proc.devRef .tc main_v6) = W3 m ρ c (Proc.devRef .tc main_v6) := W4_of_ne m ρ c main_v6 (by decide)

theorem W4_keep_main_v30 : W4 m ρ c (Proc.devRef .tc main_v30) = W3 m ρ c (Proc.devRef .tc main_v30) := W4_of_ne m ρ c main_v30 (by decide)

theorem W4_keep_main_arg3 : W4 m ρ c (Proc.devRef .tc main_arg3) = W3 m ρ c (Proc.devRef .tc main_arg3) := W4_of_ne m ρ c main_arg3 (by decide)

theorem W4_keep_main_arg4 : W4 m ρ c (Proc.devRef .tc main_arg4) = W3 m ρ c (Proc.devRef .tc main_arg4) := W4_of_ne m ρ c main_arg4 (by decide)

theorem W4_keep_main_arg5 : W4 m ρ c (Proc.devRef .tc main_arg5) = W3 m ρ c (Proc.devRef .tc main_arg5) := W4_of_ne m ρ c main_arg5 (by decide)

theorem W4_keep_main_arg6 : W4 m ρ c (Proc.devRef .tc main_arg6) = W3 m ρ c (Proc.devRef .tc main_arg6) := W4_of_ne m ρ c main_arg6 (by decide)

theorem W4_keep_main_arg7 : W4 m ρ c (Proc.devRef .tc main_arg7) = W3 m ρ c (Proc.devRef .tc main_arg7) := W4_of_ne m ρ c main_arg7 (by decide)

/-! ## Between the grids -/

theorem W7_keep_main_v3 : W7 m ρ c (Proc.devRef .tc main_v3) = W4 m ρ c (Proc.devRef .tc main_v3) := by
  show StableHlo.after hostOps1_2 (StableHlo.after hostOps1_1 (StableHlo.after hostOps1 (W4 m ρ c))) (Proc.devRef .tc main_v3) = _
  after_results

theorem W7_keep_main_v6 : W7 m ρ c (Proc.devRef .tc main_v6) = W4 m ρ c (Proc.devRef .tc main_v6) := by
  show StableHlo.after hostOps1_2 (StableHlo.after hostOps1_1 (StableHlo.after hostOps1 (W4 m ρ c))) (Proc.devRef .tc main_v6) = _
  after_results

theorem W7_keep_main_v30 : W7 m ρ c (Proc.devRef .tc main_v30) = W4 m ρ c (Proc.devRef .tc main_v30) := by
  show StableHlo.after hostOps1_2 (StableHlo.after hostOps1_1 (StableHlo.after hostOps1 (W4 m ρ c))) (Proc.devRef .tc main_v30) = _
  after_results

theorem W7_keep_main_arg3 : W7 m ρ c (Proc.devRef .tc main_arg3) = W4 m ρ c (Proc.devRef .tc main_arg3) := by
  show StableHlo.after hostOps1_2 (StableHlo.after hostOps1_1 (StableHlo.after hostOps1 (W4 m ρ c))) (Proc.devRef .tc main_arg3) = _
  after_results

theorem W7_keep_main_arg4 : W7 m ρ c (Proc.devRef .tc main_arg4) = W4 m ρ c (Proc.devRef .tc main_arg4) := by
  show StableHlo.after hostOps1_2 (StableHlo.after hostOps1_1 (StableHlo.after hostOps1 (W4 m ρ c))) (Proc.devRef .tc main_arg4) = _
  after_results

theorem W7_keep_main_arg5 : W7 m ρ c (Proc.devRef .tc main_arg5) = W4 m ρ c (Proc.devRef .tc main_arg5) := by
  show StableHlo.after hostOps1_2 (StableHlo.after hostOps1_1 (StableHlo.after hostOps1 (W4 m ρ c))) (Proc.devRef .tc main_arg5) = _
  after_results

theorem W7_keep_main_arg6 : W7 m ρ c (Proc.devRef .tc main_arg6) = W4 m ρ c (Proc.devRef .tc main_arg6) := by
  show StableHlo.after hostOps1_2 (StableHlo.after hostOps1_1 (StableHlo.after hostOps1 (W4 m ρ c))) (Proc.devRef .tc main_arg6) = _
  after_results

theorem W7_keep_main_arg7 : W7 m ρ c (Proc.devRef .tc main_arg7) = W4 m ρ c (Proc.devRef .tc main_arg7) := by
  show StableHlo.after hostOps1_2 (StableHlo.after hostOps1_1 (StableHlo.after hostOps1 (W4 m ρ c))) (Proc.devRef .tc main_arg7) = _
  after_results

set_option maxHeartbeats 2000000 in
/-- Before the clip: the first product's rows gathered at the sources, weighted, summed at the destinations, plus the bias. -/
theorem W5_pre : W5 m ρ c (Proc.devRef .tc main_v46)
    = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) := by
  have h31 := W4_hlin m ρ c
  have h3 := (W4_keep_main_v3 m ρ c).trans (W3_src m ρ c)
  have h6 := (W4_keep_main_v6 m ρ c).trans (W3_dst m ρ c)
  have h30 := (W4_keep_main_v30 m ρ c).trans (W3_norm m ρ c)
  have hb := (W4_keep_main_arg3 m ρ c).trans (W3_arg3 m ρ c)
  show StableHlo.after hostOps1 (W4 m ρ c) (Proc.devRef .tc main_v46) = _
  generalize W4 m ρ c = V at h31 h3 h6 h30 hb ⊢
  after_results_simp
  rw [h31, h3, h6, h30, hb]
  rfl

/-- The hidden layer: that, clipped at zero. -/
theorem W6_hidden : W6 m ρ c (Proc.devRef .tc main_v47)
    = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  show StableHlo.after hostOps1_1 (W5 m ρ c) (Proc.devRef .tc main_v47) = _
  rw [relu_step, W5_pre]
  rfl

/-- Putting the head matrices side by side leaves the hidden layer alone. -/
theorem W7_hidden : W7 m ρ c (Proc.devRef .tc main_v47)
    = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  have h := W6_hidden m ρ c
  show StableHlo.after hostOps1_2 (W6 m ρ c) (Proc.devRef .tc main_v47) = _
  generalize W6 m ρ c = V at h ⊢
  after_results_simp
  exact h

/-- The two head matrices side by side. -/
theorem W7_wide : W7 m ρ c (Proc.devRef .tc main_v48)
    = concatenate S128x128 1 [⟨S128x64, (m ((c : Thread nD τ).loc main_arg4))⟩, ⟨S128x64, (m ((c : Thread nD τ).loc main_arg6))⟩] concatenates_S128x64_S128x64_S128x128_d1 := by
  show StableHlo.after hostOps1_2 (StableHlo.after hostOps1_1 (StableHlo.after hostOps1 (W4 m ρ c))) (Proc.devRef .tc main_v48) = _
  after_results
  rw [W4_keep_main_arg4, W4_keep_main_arg6, W3_arg4, W3_arg6]

/-! ## The second grid -/

/-- The second grid leaves the hidden layer times the wide matrix. -/
theorem W8_wide : W8 m ρ c (Proc.devRef .tc main_v49)
    = mm (M := 100000) (K := 128) (N := 128) (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)))
        (concatenate S128x128 1 [⟨S128x64, (m ((c : Thread nD τ).loc main_arg4))⟩, ⟨S128x64, (m ((c : Thread nD τ).loc main_arg6))⟩] concatenates_S128x64_S128x64_S128x128_d1) := by
  refine (W8_arr m ρ c 2).trans ?_
  rw [final1 (V7 m ρ) c]
  show mm (W7 m ρ c (Proc.devRef .tc main_v47)) (W7 m ρ c (Proc.devRef .tc main_v48)) = _
  rw [W7_hidden, W7_wide]

theorem W8_keep_main_v3 : W8 m ρ c (Proc.devRef .tc main_v3) = W7 m ρ c (Proc.devRef .tc main_v3) := W8_of_ne m ρ c main_v3 (by decide)

theorem W8_keep_main_v6 : W8 m ρ c (Proc.devRef .tc main_v6) = W7 m ρ c (Proc.devRef .tc main_v6) := W8_of_ne m ρ c main_v6 (by decide)

theorem W8_keep_main_v30 : W8 m ρ c (Proc.devRef .tc main_v30) = W7 m ρ c (Proc.devRef .tc main_v30) := W8_of_ne m ρ c main_v30 (by decide)

theorem W8_keep_main_arg3 : W8 m ρ c (Proc.devRef .tc main_arg3) = W7 m ρ c (Proc.devRef .tc main_arg3) := W8_of_ne m ρ c main_arg3 (by decide)

theorem W8_keep_main_arg4 : W8 m ρ c (Proc.devRef .tc main_arg4) = W7 m ρ c (Proc.devRef .tc main_arg4) := W8_of_ne m ρ c main_arg4 (by decide)

theorem W8_keep_main_arg5 : W8 m ρ c (Proc.devRef .tc main_arg5) = W7 m ρ c (Proc.devRef .tc main_arg5) := W8_of_ne m ρ c main_arg5 (by decide)

theorem W8_keep_main_arg6 : W8 m ρ c (Proc.devRef .tc main_arg6) = W7 m ρ c (Proc.devRef .tc main_arg6) := W8_of_ne m ρ c main_arg6 (by decide)

theorem W8_keep_main_arg7 : W8 m ρ c (Proc.devRef .tc main_arg7) = W7 m ρ c (Proc.devRef .tc main_arg7) := W8_of_ne m ρ c main_arg7 (by decide)

/-- The row numbers, the weights and the two head biases reach the last stretch as they were before the first grid. -/
theorem W8_src : W8 m ρ c (Proc.devRef .tc main_v3) = Cert.ReferenceIdeal.ReadP.val_main_v3 (F := Ideal) (m ((c : Thread nD τ).loc main_arg1)) := by
  rw [W8_keep_main_v3, W7_keep_main_v3, W4_keep_main_v3, W3_src]
theorem W8_dst : W8 m ρ c (Proc.devRef .tc main_v6) = Cert.ReferenceIdeal.ReadP.val_main_v6 (F := Ideal) (m ((c : Thread nD τ).loc main_arg1)) := by
  rw [W8_keep_main_v6, W7_keep_main_v6, W4_keep_main_v6, W3_dst]
theorem W8_norm : W8 m ρ c (Proc.devRef .tc main_v30) = Cert.ReferenceIdeal.ReadP.val_main_v38 (F := Ideal) (m ((c : Thread nD τ).loc main_arg1)) := by
  rw [W8_keep_main_v30, W7_keep_main_v30, W4_keep_main_v30, W3_norm]
theorem W8_arg5 : W8 m ρ c (Proc.devRef .tc main_arg5) = (m ((c : Thread nD τ).loc main_arg5)) := by
  rw [W8_keep_main_arg5, W7_keep_main_arg5, W4_keep_main_arg5, W3_arg5]
theorem W8_arg7 : W8 m ρ c (Proc.devRef .tc main_arg7) = (m ((c : Thread nD τ).loc main_arg7)) := by
  rw [W8_keep_main_arg7, W7_keep_main_arg7, W4_keep_main_arg7, W3_arg7]

end Cert.KernelIdeal.Stages

end
-- ==== Proof.LibTakeRows.lean ====
/-
  Two general facts about host operations, independent of any program.

  * `Host.reduce_andi_of_all_one`: a `stablehlo.reduce` by `and` over one-bit words, started from a 1, is 1
    wherever every operand word is 1 — whatever axes it reduces over.
  * `gather_rows_apply`: the `stablehlo.gather` that `jnp.take(x, idx, axis = 0)` lowers to for a matrix
    `x : [N, C]` and a column of row numbers `idx : [R, 1]` (offset axis 1, collapsed axis 0, start index
    map [0], index vector axis 1, slices 1 × C), read at `(r, c)`: it is `x` at row `idx[r, 0]` — read as a
    signed integer and clamped into 0 … N − 1, as StableHLO clamps every start index — and column `c`.
-/
import Idealize.ShloMosaic.PureOps.Reduce
import Idealize.ShloMosaic.Lib.ValueIdx

noncomputable section

namespace Idealize.ShloMosaic.TakeRows

open Idealize.ShloMosaic Idealize.ShloMosaic.ValueIdx

/-! ## A conjunction of ones -/

/-- A left fold by `and` from 1 over words that are all 1 is 1. -/
theorem foldl_andi_of_all_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih

/-- A reduce by `and` from an initial 1 over an operand whose words are all 1 is 1 at every result index. -/
theorem Host.reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_of_all_one x hx _

/-! ## Rows of a matrix taken at a column of row numbers -/

section Rows
variable {α : Type}

/-- The dimension numbers of `jnp.take(x, idx, axis = 0)` for `x : [N, C]`, `idx : [R, 1]`, result `[R, C]`; their
    conditions `wf` are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowsIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, c)`: the operand at row `idx[r, 0]`, read signed and clamped into `[0, N − 1]`, column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (rowsIdx y)).toInt.toNat (N - 1), by omega⟩ ⟨(y 1).val, idx2_lt1 y⟩) := by
  unfold Host.gather
  congr 1
  funext a
  refine Fin.ext ?_
  match a with
  | ⟨0, _⟩ =>
    show (rowsDims N R C wf).start y idx 0 + (rowsDims N R C wf).batchCoord y 0 + (rowsDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    show (rowsDims N R C wf).start y idx 1 + (rowsDims N R C wf).batchCoord y 1 + (rowsDims N R C wf).offCoord y 1 = (y 1).val
    have hs : (rowsDims N R C wf).start y idx 1 = 0 := by
      unfold GatherDims.start
      rw [dif_neg (show (1 : Fin 2) ∉ (rowsDims N R C wf).startIndexMap from (by decide : (1 : Fin 2) ∉ ([0] : List (Fin 2))))]
    rw [hs, GatherDims.batchCoord_eq_zero _ _ _ List.not_mem_nil]
    unfold GatherDims.offCoord
    rw [dif_pos (show (1 : Fin 2) ∈ (rowsDims N R C wf).sKept from
      (GatherDims.mem_sKept _ _).mpr ⟨(by decide : (1 : Fin 2) ∉ ([0] : List (Fin 2))), List.not_mem_nil⟩)]
    simp only [Nat.zero_add]
    rfl

end Rows

end Idealize.ShloMosaic.TakeRows

end
-- ==== Proof.LibRowScatter.lean ====
/-
  An accumulating row scatter read at an index.

  The `stablehlo.scatter` with an `add` body that `jax.ops.segment_sum(u, idx, N)` (or `x.at[idx].add(u)`) lowers to for
  updates `u : [R, C]`, a column of row numbers `idx : [R, 1]` and an operand `x : [N, C]` (update window axis 1,
  inserted window axis 0, scatter axis 0, index vector axis 1): update row `e` is added, whole, to operand row
  `idx[e, 0]` — read as a signed integer, NOT clamped — and is dropped when that number is not a row of the operand.
  At the exact values the entry `(n, c)` of the result is therefore the operand's entry plus the sum, over the
  update rows `e` whose row number is `n`, of `u (e, c)`: one column of the result depends on that one column of the
  updates only. General in the three extents.
-/
import Idealize.ShloMosaic.PureOps.Ideal
import Idealize.ShloMosaic.Lib.ValueIdx

noncomputable section

open scoped BigOperators

namespace Cert.RowScatter

open Idealize.ShloMosaic Idealize.ShloMosaic.ValueIdx

variable {N R C w : ℕ}

/-- The dimension numbers of a row scatter for an operand `[N, C]`, row numbers `[R, 1]`, updates `[R, C]`; their
    conditions `wf` are decided on a program's literal shapes. -/
abbrev rowsDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row number update row `e` carries: entry `[e, 0]` of the index column, read signed. -/
def rowOf (idx : IVec ⟨2, ![R, 1]⟩ w) (e : Fin R) : Int := (idx (ix2 e ⟨0, Nat.one_pos⟩)).toInt

variable (wf : ScatterDims.WF ⟨2, ![N, C]⟩ ⟨2, ![R, 1]⟩ ⟨2, ![R, C]⟩ [1] [0] [0] 1)

/-- On the row axis the window starts at the update row's row number … -/
theorem start_row (idx : IVec ⟨2, ![R, 1]⟩ w) (e : Fin R) (k : Fin C) :
    (rowsDims N R C wf).start (ix2 e k) idx 0 = rowOf idx e := by
  unfold ScatterDims.start
  rw [dif_pos (show (0 : Fin 2) ∈ (rowsDims N R C wf).scatterDimsToOperandDims from List.mem_singleton.mpr rfl)]
  have hsi : (rowsDims N R C wf).siIdx (ix2 e k) ⟨List.idxOf (0 : Fin 2) (rowsDims N R C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- … and on the column axis at 0. -/
theorem start_col (idx : IVec ⟨2, ![R, 1]⟩ w) (e : Fin R) (k : Fin C) :
    (rowsDims N R C wf).start (ix2 e k) idx 1 = 0 := by
  unfold ScatterDims.start
  rw [dif_neg (show (1 : Fin 2) ∉ (rowsDims N R C wf).scatterDimsToOperandDims from
    (by decide : (1 : Fin 2) ∉ ([0] : List (Fin 2))))]

/-- The window coordinate is 0 on the (inserted) row axis … -/
theorem window_row (e : Fin R) (k : Fin C) : (rowsDims N R C wf).window (ix2 e k) 0 = 0 := by
  unfold ScatterDims.window
  rw [dif_neg (show (0 : Fin 2) ∉ (rowsDims N R C wf).sKept from by
    simp [ScatterDims.sKept, Shape.kept, List.mem_filter, List.mem_finRange])]

/-- … and the update's column on the column axis. -/
theorem window_col (e : Fin R) (k : Fin C) : (rowsDims N R C wf).window (ix2 e k) 1 = k.val := by
  unfold ScatterDims.window
  rw [dif_pos (show (1 : Fin 2) ∈ (rowsDims N R C wf).sKept from by
    simp [ScatterDims.sKept, Shape.kept, List.mem_filter, List.mem_finRange])]
  rfl

/-- Where update entry `(e, k)` lands: operand entry `(n, c)` exactly when its row number is `n` and `k = c`. -/
theorem resultIdx?_eq_some_iff (idx : IVec ⟨2, ![R, 1]⟩ w) (e : Fin R) (k : Fin C) (n : Fin N) (c : Fin C) :
    (rowsDims N R C wf).resultIdx? (ix2 e k) idx = some (ix2 n c) ↔ rowOf idx e = (n.val : Int) ∧ k = c := by
  unfold ScatterDims.resultIdx?
  have h0 : (rowsDims N R C wf).start (ix2 e k) idx 0 + ((rowsDims N R C wf).window (ix2 e k) 0 : Int) = rowOf idx e := by
    rw [start_row, window_row]; simp
  have h1 : (rowsDims N R C wf).start (ix2 e k) idx 1 + ((rowsDims N R C wf).window (ix2 e k) 1 : Int) = (k.val : Int) := by
    rw [start_col, window_col]; simp
  constructor
  · intro h
    split at h
    · rename_i hin
      have hf := Option.some.inj h
      have e0 := congrArg (fun f => (f 0).val) hf
      have e1 := congrArg (fun f => (f 1).val) hf
      simp only at e0 e1
      have hn : ((ix2 n c : (⟨2, ![N, C]⟩ : Shape).Idx) 0).val = n.val := rfl
      have hc : ((ix2 n c : (⟨2, ![N, C]⟩ : Shape).Idx) 1).val = c.val := rfl
      rw [hn] at e0; rw [hc] at e1
      have b0 := hin 0
      rw [h0] at b0 e0
      rw [h1] at e1
      refine ⟨by omega, Fin.ext (by omega)⟩
    · exact absurd h (by simp)
  · rintro ⟨hr, rfl⟩
    have hin : ∀ a : Fin 2, 0 ≤ (rowsDims N R C wf).start (ix2 e k) idx a + ((rowsDims N R C wf).window (ix2 e k) a : Int)
        ∧ (rowsDims N R C wf).start (ix2 e k) idx a + ((rowsDims N R C wf).window (ix2 e k) a : Int) < ((⟨2, ![N, C]⟩ : Shape).size a : Int) := by
      intro a
      match a with
      | ⟨0, _⟩ =>
        show 0 ≤ (rowsDims N R C wf).start (ix2 e k) idx 0 + ((rowsDims N R C wf).window (ix2 e k) 0 : Int)
          ∧ (rowsDims N R C wf).start (ix2 e k) idx 0 + ((rowsDims N R C wf).window (ix2 e k) 0 : Int) < (N : Int)
        rw [h0, hr]
        exact ⟨Int.natCast_nonneg _, by exact_mod_cast n.isLt⟩
      | ⟨1, _⟩ =>
        show 0 ≤ (rowsDims N R C wf).start (ix2 e k) idx 1 + ((rowsDims N R C wf).window (ix2 e k) 1 : Int)
          ∧ (rowsDims N R C wf).start (ix2 e k) idx 1 + ((rowsDims N R C wf).window (ix2 e k) 1 : Int) < (C : Int)
        rw [h1]
        exact ⟨Int.natCast_nonneg _, by exact_mod_cast k.isLt⟩
    rw [dif_pos hin]
    congr 1
    funext a
    refine Fin.ext ?_
    match a with
    | ⟨0, _⟩ =>
      show ((rowsDims N R C wf).start (ix2 e k) idx 0 + ((rowsDims N R C wf).window (ix2 e k) 0 : Int)).toNat = n.val
      rw [h0, hr]; simp
    | ⟨1, _⟩ =>
      show ((rowsDims N R C wf).start (ix2 e k) idx 1 + ((rowsDims N R C wf).window (ix2 e k) 1 : Int)).toNat = k.val
      rw [h1]; simp

/-- THE ROW SCATTER READ AT `(n, c)`: the operand's entry plus the sum of column `c` of the update rows whose row
    number is `n`. -/
theorem hostScatterAdd_rows_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsDims N R C wf) x idx upd (ix2 n c)
      = x (ix2 n c) + ∑ e : Fin R, if rowOf idx e = (n.val : Int) then upd (ix2 e c) else 0 := by
  unfold Ideal.hostScatterAdd
  congr 1
  rw [Finset.sum_filter, sum_idx2]
  refine Finset.sum_congr rfl fun e _ => ?_
  simp only [resultIdx?_eq_some_iff wf idx e _ n c]
  by_cases hr : rowOf idx e = (n.val : Int)
  · simp only [hr, true_and, if_true]
    rw [Finset.sum_ite_eq' Finset.univ c (fun k => upd (ix2 e k))]
    simp
  · simp only [hr, false_and, if_false]
    exact Finset.sum_const_zero

end Cert.RowScatter

end
-- ==== Proof.LibRowAggregate.lean ====
/-
  A neighbourhood aggregation read at an entry, and its column windows.

  The message-passing step `segment_sum(x[src] * norm[:, None], dst, N)` lowers to three host operations: a row gather
  of `x : [N, C]` at a column of row numbers `S : [E, 1]`, a product with a column `w : [E, 1]` broadcast along the
  second axis, and an accumulating row scatter into an operand `z : [N, C]` at a column of row numbers `I : [E, 1]`.
  At the exact values its entry `(n, c)` is

      z (n, c) + ∑ e, [I e = n] · x (clamp (S e), c) · w (e, 0):

  column `c` of the result depends on column `c` of `x` and of `z` only. So a window of columns cut out of the
  aggregate of a wide matrix is the aggregate of that window of the matrix: aggregating a matrix whose columns are two
  heads side by side and cutting the heads apart afterwards gives each head's own aggregate. General in the extents.
-/
import Idealize.ShloMosaic.Lib.Pipeline.Value
import Idealize.ShloMosaic.Lib.ValueLayout
import proofs.«178724_j18897856102728_1_alg».proof.Proof.LibTakeRows
import proofs.«178724_j18897856102728_1_alg».proof.Proof.LibRowScatter

noncomputable section

open scoped BigOperators

namespace Cert.RowAggregate

open Idealize.ShloMosaic Idealize.ShloMosaic.ValueIdx Idealize.ShloMosaic.TakeRows Cert.RowScatter

variable {N E C : ℕ}

/-- The row of `x` that edge `e` takes: its row number read signed and clamped into `0 … N − 1`. -/
def takenRow (hN : 0 < N) (S : IVec ⟨2, ![E, 1]⟩ 32) (e : Fin E) : Fin N :=
  ⟨min (S (ix2 e ⟨0, Nat.one_pos⟩)).toInt.toNat (N - 1), by omega⟩

/-- THE AGGREGATE READ AT `(n, c)`. -/
theorem aggregate_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (z : (⟨2, ![N, C]⟩ : Shape).Idx → EReal) (x : (⟨2, ![N, C]⟩ : Shape).Idx → EReal)
    (S I : IVec ⟨2, ![E, 1]⟩ 32) (w : (⟨2, ![E, 1]⟩ : Shape).Idx → EReal) (n : Fin N) (c : Fin C) :
    Ideal.hostScatterAdd (RowScatter.rowsDims N E C wfS) z I
        (mulf (F := Ideal) (φ := .f32) (Host.gather (TakeRows.rowsDims N E C wfG) x S) (broadcastInDim ⟨2, ![E, C]⟩ ![0, 1] hb w)) (ix2 n c)
      = z (ix2 n c) + ∑ e : Fin E, if rowOf I e = (n.val : Int)
          then x (ix2 (takenRow hN S e) c) * w (ix2 e ⟨0, Nat.one_pos⟩) else 0 := by
  rw [hostScatterAdd_rows_apply]
  congr 1
  refine Finset.sum_congr rfl fun e _ => ?_
  congr 1
  rw [mulf_apply, gather_rows_apply hN wfG x S (ix2 e c),
    broadcastInDim_apply ![0, 1] hb w (ix2 e c) (ix2 e ⟨0, Nat.one_pos⟩) (fun a => by
      match a with
      | ⟨0, _⟩ =>
        show e.val = if E = 1 then 0 else e.val
        split
        · next h => have := e.isLt; omega
        · rfl
      | ⟨1, _⟩ => exact (if_pos rfl).symm)]
  have hri : rowsIdx (ix2 e c : (⟨2, ![E, C]⟩ : Shape).Idx) = ix2 e ⟨0, Nat.one_pos⟩ := by
    funext a
    match a with
    | ⟨0, _⟩ => rfl
    | ⟨1, _⟩ => rfl
  have hrow : (⟨min (S (rowsIdx (ix2 e c : (⟨2, ![E, C]⟩ : Shape).Idx))).toInt.toNat (N - 1), by omega⟩ : Fin N)
      = takenRow hN S e := by
    refine Fin.ext ?_
    show min (S (rowsIdx (ix2 e c : (⟨2, ![E, C]⟩ : Shape).Idx))).toInt.toNat (N - 1)
      = min (S (ix2 e ⟨0, Nat.one_pos⟩)).toInt.toNat (N - 1)
    rw [hri]
  exact congrArg (fun r : Fin N => x (ix2 r c) * w (ix2 e ⟨0, Nat.one_pos⟩)) hrow

variable {C₂ : ℕ}

/-- A WINDOW OF COLUMNS of an aggregate is the aggregate of the window: columns `off … off + C₂ − 1` cut out of the
    aggregate of `x` into `z` are the aggregate of `x₂` into `z₂`, when `x₂` and `z₂` are those columns of `x` and `z`. -/
theorem slice_aggregate (hN : 0 < N) (off : ℕ) (hoff : off + C₂ ≤ C)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (wfS₂ : ScatterDims.WF ⟨2, ![N, C₂]⟩ ⟨2, ![E, 1]⟩ ⟨2, ![E, C₂]⟩ [1] [0] [0] 1)
    (wfG₂ : GatherDims.WF ⟨2, ![N, C₂]⟩ ⟨2, ![E, 1]⟩ ⟨2, ![E, C₂]⟩ [1] [0] [] [0] [] 1 ![1, C₂])
    (hb₂ : (⟨2, ![E, 1]⟩ : Shape).BroadcastsInDim ⟨2, ![E, C₂]⟩ ![0, 1])
    (hs : (⟨2, ![N, C]⟩ : Shape).Slices ![0, off] ⟨2, ![N, C₂]⟩)
    (z x : (⟨2, ![N, C]⟩ : Shape).Idx → EReal) (z₂ x₂ : (⟨2, ![N, C₂]⟩ : Shape).Idx → EReal)
    (S I : IVec ⟨2, ![E, 1]⟩ 32) (w : (⟨2, ![E, 1]⟩ : Shape).Idx → EReal)
    (hz : ∀ (n : Fin N) (c : Fin C₂) (k : Fin C), k.val = off + c.val → z (ix2 n k) = z₂ (ix2 n c))
    (hx : ∀ (i : Fin N) (c : Fin C₂) (k : Fin C), k.val = off + c.val → x (ix2 i k) = x₂ (ix2 i c)) :
    extractStridedSlice ⟨2, ![N, C₂]⟩ ![0, off]
        (Ideal.hostScatterAdd (RowScatter.rowsDims N E C wfS) z I
          (mulf (F := Ideal) (φ := .f32) (Host.gather (TakeRows.rowsDims N E C wfG) x S) (broadcastInDim ⟨2, ![E, C]⟩ ![0, 1] hb w))) hs
      = Ideal.hostScatterAdd (RowScatter.rowsDims N E C₂ wfS₂) z₂ I
          (mulf (F := Ideal) (φ := .f32) (Host.gather (TakeRows.rowsDims N E C₂ wfG₂) x₂ S) (broadcastInDim ⟨2, ![E, C₂]⟩ ![0, 1] hb₂ w)) := by
  funext j
  obtain ⟨n, c, rfl⟩ : ∃ (n : Fin N) (c : Fin C₂), j = ix2 n c := ⟨j 0, j 1, eq_ix2 j⟩
  have hk : (⟨off + c.val, by have := c.isLt; omega⟩ : Fin C).val = off + c.val := rfl
  rw [slice2_axis1_apply off _ hs n c ⟨off + c.val, by have := c.isLt; omega⟩ hk,
    aggregate_apply hN wfS wfG hb, aggregate_apply hN wfS₂ wfG₂ hb₂, hz n c _ hk]
  congr 1
  refine Finset.sum_congr rfl fun e _ => ?_
  rw [hx _ c _ hk]

end Cert.RowAggregate

end
-- ==== Proof.Bridge.lean ====
/-
  The idealized kernel's two results are the reference's.

  After the second grid the kernel gathers the rows of the wide product `h · [W_mu | W_ls]` at the sources, weights
  them, sums them at the destinations, and only then cuts the 128 columns into the two heads and adds each head's
  bias. The reference does the same aggregation once per head on `h · W_mu` and on `h · W_ls`. The two agree because an
  aggregated entry `(n, c)` is `∑ e, [dst e = n] · x (src e, c) · weight e`, which reads column `c` of `x` alone; and column
  `c` of `h · [W_mu | W_ls]` is column `c` of `h · W_mu` for `c < 64` and column `c − 64` of `h · W_ls` beyond. Everything else
  (row numbers, weights, the hidden layer `h`, the biases) is one and the same composition of operations on both sides.
-/
import proofs.«178724_j18897856102728_1_alg».proof.Proof.KernelStages
import proofs.«178724_j18897856102728_1_alg».proof.Proof.LibRowAggregate
import proofs.«178724_j18897856102728_1_alg».proof.Proof.LibPlainProduct
import proofs.«178724_j18897856102728_1_alg».proof.Proof.RefReadPatched

set_option maxRecDepth 16384

noncomputable section

namespace Cert.Bridge

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Stages Cert.PlainProduct Cert.RowAggregate

/-! ## A head's columns of the wide aggregate are the head's own aggregate -/

/-- Columns 0 … 63 of the aggregate of `h · [W_mu | W_ls]` are the aggregate of `h · W_mu`. -/
theorem head_mu (H : S100000x128.Idx → EReal) (a4 a6 : S128x64.Idx → EReal) (S I : IVec S1700000x1 32)
    (w : S1700000x1.Idx → EReal) :
    extractStridedSlice S100000x64 ![0, 0]
        (Host.scatterAdd (F := Ideal) (φ := .f32) scatter_S100000x128_S1700000x1_S1700000x128_1_0_0_1
          (broadcastInDim S100000x128 ![] bcast_S_S100000x128 (constant (F := Ideal) S_ .f32 0x00000000#32)) I
          (mulf (F := Ideal) (φ := .f32) (Host.gather gather_S100000x128_S1700000x1_S1700000x128_1_0_n_n_0_1_1128
              (mm (M := 100000) (K := 128) (N := 128) H
                (concatenate S128x128 1 [⟨S128x64, a4⟩, ⟨S128x64, a6⟩] concatenates_S128x64_S128x64_S128x128_d1)) S)
            (broadcastInDim S1700000x128 ![0, 1] bcast_S1700000x1_S1700000x128_0_1 w))) slices_S100000x128_S100000x64_0_0
      = Host.scatterAdd (F := Ideal) (φ := .f32) Cert.ReferenceIdeal.scatter_S100000x64_S1700000x1_S1700000x64_1_0_0_1
          (broadcastInDim Cert.ReferenceIdeal.S100000x64 ![] Cert.ReferenceIdeal.Gen.bcast_S_S100000x64 (constant (F := Ideal) Cert.ReferenceIdeal.S_ .f32 0x00000000#32)) I
          (mulf (F := Ideal) (φ := .f32) (Host.gather Cert.ReferenceIdeal.gather_S100000x64_S1700000x1_S1700000x64_1_0_n_n_0_1_164
              (Host.dotGeneral (F := Ideal) (φ₁ := .f32) (φ₂ := .f32) Cert.ReferenceIdeal.dot_S100000x128_S128x64_S100000x64_1_0_0_1_n_n none H a4) S)
            (broadcastInDim Cert.ReferenceIdeal.S1700000x64 ![0, 1] Cert.ReferenceIdeal.Gen.bcast_S1700000x1_S1700000x64_0_1 w)) :=
  slice_aggregate (N := 100000) (E := 1700000) (C := 128) (C₂ := 64) (by decide) 0 (by decide)
    scatter_S100000x128_S1700000x1_S1700000x128_1_0_0_1.wf gather_S100000x128_S1700000x1_S1700000x128_1_0_n_n_0_1_1128.wf
    bcast_S1700000x1_S1700000x128_0_1
    Cert.ReferenceIdeal.scatter_S100000x64_S1700000x1_S1700000x64_1_0_0_1.wf Cert.ReferenceIdeal.gather_S100000x64_S1700000x1_S1700000x64_1_0_n_n_0_1_164.wf
    Cert.ReferenceIdeal.Gen.bcast_S1700000x1_S1700000x64_0_1 slices_S100000x128_S100000x64_0_0 _ _ _ _ S I w
    (fun n c k hk => rfl)
    (fun i c k hk => by
      rw [show Host.dotGeneral (F := Ideal) (φ₁ := .f32) (φ₂ := .f32) Cert.ReferenceIdeal.dot_S100000x128_S128x64_S100000x64_1_0_0_1_n_n none H a4 = mm H a4 from
        dotGeneral_eq_mm Cert.ReferenceIdeal.dot_S100000x128_S128x64_S100000x64_1_0_0_1_n_n rfl rfl rfl rfl rfl rfl none _ H a4]
      exact mm_sideBySide_left H a4 a6 concatenates_S128x64_S128x64_S128x128_d1 i c k (by omega))

/-- Columns 64 … 127 of the aggregate of `h · [W_mu | W_ls]` are the aggregate of `h · W_ls`. -/
theorem head_ls (H : S100000x128.Idx → EReal) (a4 a6 : S128x64.Idx → EReal) (S I : IVec S1700000x1 32)
    (w : S1700000x1.Idx → EReal) :
    extractStridedSlice S100000x64 ![0, 64]
        (Host.scatterAdd (F := Ideal) (φ := .f32) scatter_S100000x128_S1700000x1_S1700000x128_1_0_0_1
          (broadcastInDim S100000x128 ![] bcast_S_S100000x128 (constant (F := Ideal) S_ .f32 0x00000000#32)) I
          (mulf (F := Ideal) (φ := .f32) (Host.gather gather_S100000x128_S1700000x1_S1700000x128_1_0_n_n_0_1_1128
              (mm (M := 100000) (K := 128) (N := 128) H
                (concatenate S128x128 1 [⟨S128x64, a4⟩, ⟨S128x64, a6⟩] concatenates_S128x64_S128x64_S128x128_d1)) S)
            (broadcastInDim S1700000x128 ![0, 1] bcast_S1700000x1_S1700000x128_0_1 w))) slices_S100000x128_S100000x64_0_64
      = Host.scatterAdd (F := Ideal) (φ := .f32) Cert.ReferenceIdeal.scatter_S100000x64_S1700000x1_S1700000x64_1_0_0_1
          (broadcastInDim Cert.ReferenceIdeal.S100000x64 ![] Cert.ReferenceIdeal.Gen.bcast_S_S100000x64 (constant (F := Ideal) Cert.ReferenceIdeal.S_ .f32 0x00000000#32)) I
          (mulf (F := Ideal) (φ := .f32) (Host.gather Cert.ReferenceIdeal.gather_S100000x64_S1700000x1_S1700000x64_1_0_n_n_0_1_164
              (Host.dotGeneral (F := Ideal) (φ₁ := .f32) (φ₂ := .f32) Cert.ReferenceIdeal.dot_S100000x128_S128x64_S100000x64_1_0_0_1_n_n none H a6) S)
            (broadcastInDim Cert.ReferenceIdeal.S1700000x64 ![0, 1] Cert.ReferenceIdeal.Gen.bcast_S1700000x1_S1700000x64_0_1 w)) :=
  slice_aggregate (N := 100000) (E := 1700000) (C := 128) (C₂ := 64) (by decide) 64 (by decide)
    scatter_S100000x128_S1700000x1_S1700000x128_1_0_0_1.wf gather_S100000x128_S1700000x1_S1700000x128_1_0_n_n_0_1_1128.wf
    bcast_S1700000x1_S1700000x128_0_1
    Cert.ReferenceIdeal.scatter_S100000x64_S1700000x1_S1700000x64_1_0_0_1.wf Cert.ReferenceIdeal.gather_S100000x64_S1700000x1_S1700000x64_1_0_n_n_0_1_164.wf
    Cert.ReferenceIdeal.Gen.bcast_S1700000x1_S1700000x64_0_1 slices_S100000x128_S100000x64_0_64 _ _ _ _ S I w
    (fun n c k hk => rfl)
    (fun i c k hk => by
      rw [show Host.dotGeneral (F := Ideal) (φ₁ := .f32) (φ₂ := .f32) Cert.ReferenceIdeal.dot_S100000x128_S128x64_S100000x64_1_0_0_1_n_n none H a6 = mm H a6 from
        dotGeneral_eq_mm Cert.ReferenceIdeal.dot_S100000x128_S128x64_S100000x64_1_0_0_1_n_n rfl rfl rfl rfl rfl rfl none _ H a6]
      exact mm_sideBySide_right H a4 a6 concatenates_S128x64_S128x64_S128x128_d1 i c k (by omega))

/-! ## The two results -/

variable (m : (ℓ : Loc nD τ sig) → Buf (Elt Ideal) ℓ) (ρ : Dev nD → PrngReg) (c : Dev nD)

set_option maxHeartbeats 2000000 in
/-- The first result: the reference's first head. -/
theorem W9_mu : W9 m ρ c (Proc.devRef .tc main_v65)
    = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h49 := W8_wide m ρ c
  have h3 := W8_src m ρ c
  have h6 := W8_dst m ρ c
  have h30 := W8_norm m ρ c
  have hb := W8_arg5 m ρ c
  show StableHlo.after hostOps2 (W8 m ρ c) (Proc.devRef .tc main_v65) = _
  generalize W8 m ρ c = V at h49 h3 h6 h30 hb ⊢
  after_results_simp
  rw [h49, h3, h6, h30, hb]
  rw [head_mu]
  rfl

set_option maxHeartbeats 2000000 in
/-- The second result: the reference's second head. -/
theorem W9_ls : W9 m ρ c (Proc.devRef .tc main_v69)
    = Cert.ReferenceIdeal.ReadP.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  have h49 := W8_wide m ρ c
  have h3 := W8_src m ρ c
  have h6 := W8_dst m ρ c
  have h30 := W8_norm m ρ c
  have hb := W8_arg7 m ρ c
  show StableHlo.after hostOps2 (W8 m ρ c) (Proc.devRef .tc main_v69) = _
  generalize W8 m ρ c = V at h49 h3 h6 h30 hb ⊢
  after_results_simp
  rw [h49, h3, h6, h30, hb]
  rw [head_ls]
  rfl

end Cert.Bridge

end
-- ==== Proof.lean ====
/-
  A two-layer graph convolution encoder with two output heads: the kernel against its reference.

  Both programs compute, from node features `x`, an edge list, and weights `W1, b1, W_mu, b_mu, W_ls, b_ls`,

      h      = relu (A (x · W1) + b1),      mu = A (h · W_mu) + b_mu,      logstd = A (h · W_ls) + b_ls,

  where `A` is the normalized neighbourhood sum: `(A y) (n, c) = ∑ e, [dst e = n] · y (src e, c) · weight e` over the edges
  and one self loop per node, `weight e` the product of the two endpoints' inverse square root in-degrees. The reference
  evaluates every piece on the host. The kernel computes the two matrix products on a grid of row blocks — the second
  one as a single product with the heads side by side, `h · [W_mu | W_ls]` — aggregates the 128 columns at once and cuts
  the heads apart afterwards. At the exact values a row-blocked product is the whole product, the casts to a narrow
  float format on the way into a product are the identity, and an aggregated column depends on that column alone; so
  the two programs end with equal results. No law used here needs the inputs to be finite.

  The frames of the two kernel programs are the generated ones; the reference's frame is its run with the results
  dropped; the idealized kernel is the printed kernel read at the exact values, with no rewrite to account for.
-/
import proofs.«178724_j18897856102728_1_alg».proof.Defs
import proofs.«178724_j18897856102728_1_alg».proof.Proof.Gen.Kernel
import proofs.«178724_j18897856102728_1_alg».proof.Proof.Gen.Kernel.Skeleton
import proofs.«178724_j18897856102728_1_alg».proof.Proof.Gen.Kernel.Launch
import proofs.«178724_j18897856102728_1_alg».proof.Proof.Gen.Kernel.Points
import proofs.«178724_j18897856102728_1_alg».proof.Proof.Gen.Kernel.Frame
import proofs.«178724_j18897856102728_1_alg».proof.Proof.Gen.KernelIdeal
import proofs.«178724_j18897856102728_1_alg».proof.Proof.Gen.KernelIdeal.Skeleton
import proofs.«178724_j18897856102728_1_alg».proof.Proof.Gen.KernelIdeal.Launch
import proofs.«178724_j18897856102728_1_alg».proof.Proof.Gen.KernelIdeal.Points
import proofs.«178724_j18897856102728_1_alg».proof.Proof.Gen.KernelIdeal.Frame
import proofs.«178724_j18897856102728_1_alg».proof.Proof.Gen.ReferenceIdeal
import proofs.«178724_j18897856102728_1_alg».proof.Proof.Gen.Pre_finite_inputs
import proofs.«178724_j18897856102728_1_alg».proof.Proof.RefRunPatched
import proofs.«178724_j18897856102728_1_alg».proof.Proof.RefReadPatched
import proofs.«178724_j18897856102728_1_alg».proof.Proof.KernelRun
import proofs.«178724_j18897856102728_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the reference's two heads as functions of the kernel's launch contents: the kernel by its
    run read back through its segments, the reference by its run and the agreement of the two memories on the arguments. -/
theorem algebraic : Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.W9_mu m ρ c), (h c).2.1.trans (Cert.Bridge.W9_ls m ρ c), (h c).2.2⟩)
      (Cert.KernelIdeal.RunValue.run_results m ρ)
  · refine (θ_run Cert.ReferenceIdeal.defs _ _).mono (fun r h c => ⟨?_, ?_, (h c).2.2⟩)
      (Cert.ReferenceIdeal.ValueP.run (F := Ideal) m' ρ')
    · obtain ⟨e0, e1, e2, e3, e4, e5, e6, e7⟩ := hagree c
      rw [(h c).1, Cert.ReferenceIdeal.ReadP.val_main_v87_eq, e0, e1, e2, e3, e4, e5]
    · obtain ⟨e0, e1, e2, e3, e4, e5, e6, e7⟩ := hagree c
      rw [(h c).2.1, Cert.ReferenceIdeal.ReadP.val_main_v127_eq, e0, e1, e2, e3, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
